-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg6
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S50000x512 .f32) (main_arg1 : IVec S800000 32) (main_arg2 : IVec S800000 32) (main_arg3 : FVec F S800000 .f32) (main_arg4 : FVec F S512x64 .f32) (main_arg5 : FVec F S64 .f32) (main_arg6 : FVec F S64x16 .f32) (main_arg7 : FVec F S16 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x64 .f32 := Host.absf main_arg4
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S50000x512 : Shape := ⟨2, ![50000, 512]⟩
abbrev S800000 : Shape := ⟨1, ![800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S50000x64 : Shape := ⟨2, ![50000, 64]⟩
abbrev S2000x512 : Shape := ⟨2, ![2000, 512]⟩
abbrev S2000x64 : Shape := ⟨2, ![2000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S50000x16 : Shape := ⟨2, ![50000, 16]⟩
abbrev S2000x16 : Shape := ⟨2, ![2000, 16]⟩
abbrev S800000x16 : Shape := ⟨2, ![800000, 16]⟩
abbrev S1x16 : Shape := ⟨2, ![1, 16]⟩
abbrev S50000 : Shape := ⟨1, ![50000]⟩
abbrev S50000x1 : Shape := ⟨2, ![50000, 1]⟩

abbrev nBuf : Space → Nat
  | .hbm => 62
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S50000x64, .bf16⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .bf16⟩
  | .hbm, ⟨18, _⟩ => ⟨S800000x64, .f32⟩
  | .hbm, ⟨19, _⟩ => ⟨S800000x1, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S1x64, .f32⟩
  | .hbm, ⟨27, _⟩ => ⟨S50000x16, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x16, .bf16⟩
  | .hbm, ⟨37, _⟩ => ⟨S800000x16, .f32⟩
  | .hbm, ⟨38, _⟩ => ⟨S800000x1, .f32⟩
  | .hbm, ⟨39, _⟩ => ⟨S800000x16, .f32⟩
  | .hbm, ⟨40, _⟩ => ⟨S800000x16, .f32⟩
  | .hbm, ⟨41, _⟩ => ⟨S_, .f32⟩
  | .hbm, ⟨42, _⟩ => ⟨S50000x16, .f32⟩
  | .hbm, ⟨43, _⟩ => ⟨S800000x1, .i32⟩
  | .hbm, ⟨44, _⟩ => ⟨S50000x16, .f32⟩
  | .hbm, ⟨45, _⟩ => ⟨S1x16, .f32⟩
  | .hbm, ⟨46, _⟩ => ⟨S50000x16, .f32⟩
  | .hbm, ⟨47, _⟩ => ⟨S50000x16, .f32⟩
  | .hbm, ⟨48, _⟩ => ⟨S_, .f32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000x1, .f32⟩
  | .hbm, ⟨54, _⟩ => ⟨S50000x16, .f32⟩
  | .hbm, ⟨55, _⟩ => ⟨S50000x16, .f32⟩
  | .hbm, ⟨56, _⟩ => ⟨S50000x16, .f32⟩
  | .hbm, ⟨57, _⟩ => ⟨S_, .f32⟩
  | .hbm, ⟨58, _⟩ => ⟨S50000, .f32⟩
  | .hbm, ⟨59, _⟩ => ⟨S50000x1, .f32⟩
  | .hbm, ⟨60, _⟩ => ⟨S50000x16, .f32⟩
  | .hbm, ⟨61, _⟩ => ⟨S50000x16, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x64, .bf16⟩
  | .local _ .vmem, ⟨4, _⟩ => ⟨S2000x64, .bf16⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S64x16, .f32⟩
  | .local _ .vmem, ⟨9, _⟩ => ⟨S2000x16, .bf16⟩
  | .local _ .vmem, ⟨10, _⟩ => ⟨S2000x16, .bf16⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x16 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  packedbf16_S2000x16_S2000x16_0_0 : (Rect.unit (s := S2000x16) ![0, 0] S2000x16.size inb_S2000x16_S2000x16_0_0).PackedRows (EltTy.packing .bf16)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S2000x512_S512x64_S2000x64_1_0_0_1_n_n_wf : DotDims.WF S2000x512 S512x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x16_S2000x16_1_0_0_1_n_n_wf : DotDims.WF S2000x64 S64x16 S2000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .bf16 = 32 ∨ (Rect.block (s := S50000x64) S2000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S50000x16.size a
  hwx1_3 : ∀ i : grid1.Coords, EltTy.bits .bf16 = 32 ∨ (Rect.block (s := S50000x16) S2000x16.size (cc1_transform_3 i) (hinb1_3 i)).WholeWords (EltTy.packing .bf16)

variable [Facts₀]

def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S800000 : Shape := ⟨1, ![800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S50000x16 : Shape := ⟨2, ![50000, 16]⟩
abbrev S800000x16 : Shape := ⟨2, ![800000, 16]⟩
abbrev S1x16 : Shape := ⟨2, ![1, 16]⟩
abbrev S50000 : Shape := ⟨1, ![50000]⟩
abbrev S50000x1 : Shape := ⟨2, ![50000, 1]⟩

abbrev nBuf : Space → Nat
  | .hbm => 65
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S50000x64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S800000x1, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S50000x64, .f32⟩
  | .hbm, ⟨23, _⟩ => ⟨S800000x1, .i32⟩
  | .hbm, ⟨24, _⟩ => ⟨S50000x64, .f32⟩
  | .hbm, ⟨25, _⟩ => ⟨S1x64, .f32⟩
  | .hbm, ⟨26, _⟩ => ⟨S50000x64, .f32⟩
  | .hbm, ⟨27, _⟩ => ⟨S50000x64, .f32⟩
  | .hbm, ⟨28, _⟩ => ⟨S_, .f32⟩
  | .hbm, ⟨29, _⟩ => ⟨S50000x64, .f32⟩
  | .hbm, ⟨30, _⟩ => ⟨S50000x64, .f32⟩
  | .hbm, ⟨31, _⟩ => ⟨S50000x16, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x16, .f32⟩
  | .hbm, ⟨41, _⟩ => ⟨S800000x1, .f32⟩
  | .hbm, ⟨42, _⟩ => ⟨S800000x16, .f32⟩
  | .hbm, ⟨43, _⟩ => ⟨S800000x16, .f32⟩
  | .hbm, ⟨44, _⟩ => ⟨S_, .f32⟩
  | .hbm, ⟨45, _⟩ => ⟨S50000x16, .f32⟩
  | .hbm, ⟨46, _⟩ => ⟨S800000x1, .i32⟩
  | .hbm, ⟨47, _⟩ => ⟨S50000x16, .f32⟩
  | .hbm, ⟨48, _⟩ => ⟨S1x16, .f32⟩
  | .hbm, ⟨49, _⟩ => ⟨S50000x16, .f32⟩
  | .hbm, ⟨50, _⟩ => ⟨S50000x16, .f32⟩
  | .hbm, ⟨51, _⟩ => ⟨S_, .f32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x16, .f32⟩
  | .hbm, ⟨58, _⟩ => ⟨S50000x16, .f32⟩
  | .hbm, ⟨59, _⟩ => ⟨S50000x16, .f32⟩
  | .hbm, ⟨60, _⟩ => ⟨S_, .f32⟩
  | .hbm, ⟨61, _⟩ => ⟨S50000, .f32⟩
  | .hbm, ⟨62, _⟩ => ⟨S50000x1, .f32⟩
  | .hbm, ⟨63, _⟩ => ⟨S50000x16, .f32⟩
  | .hbm, ⟨64, _⟩ => ⟨S50000x16, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x512_S512x64_S50000x64_1_0_0_1_n_n_wf : DotDims.WF S50000x512 S512x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x16_S50000x16_1_0_0_1_n_n_wf : DotDims.WF S50000x64 S64x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1

variable [Facts₀]

def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

class Facts : Prop extends Facts₀ where

variable [Facts]
-- ==== Proof.KernelRun.lean ====
/-
  The idealized kernel program's run with its RESULT named.

  The program is four segments in a row: the first tiled product, a stretch of host operations (the first sparse
  aggregation), the second tiled product (bias, rectifier, product), and a last stretch of host operations (the second
  sparse aggregation, the bias and the row softmax). Running the segments from the launch memory leaves every unscoped
  buffer of a core at the last boundary's contents; read at the result buffer this is the program's value, and read at
  an argument it is the launch contents. So every weakly fair execution terminates with the result buffer holding the
  last boundary's contents at that buffer, and the eight arguments unchanged.
-/
import proofs.«121364_j7541962571801_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the contents the
    four segments leave there, and each argument array ends as launched. -/
theorem run : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.Layer1Blocks.lean ====
/-
  The first tiled product, as one whole-array function.

  The grid has 25 points. At point `t` the body is handed rows `2000 t … 2000 t + 1999` of the left array (all 512
  columns) and the whole right array, multiplies them into a zero accumulator and stores the 2000 × 64 product; the
  pipeline writes that block back as rows `2000 t … 2000 t + 1999` of the output array. The contracted axis is never
  cut, so entry `(r, q)` of the block at point `r / 2000` is the full sum `∑ₖ left (r, k) * right (k, q)`, and the 25
  blocks tile the 50000 rows: the output array ends as the product of the two arrays the region was entered with.
-/
import proofs.«121364_j7541962571801_2_alg».proof.Proof.Gen.KernelIdeal.Frame
import proofs.«121364_j7541962571801_2_alg».proof.Proof.LibBlock
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

/-- Entry `(r, q)` of the product of a 50000 × 512 array with a 512 × 64 array. -/
def prodAt (x : S50000x512.Idx → EReal) (w : S512x64.Idx → EReal) (r : Fin 50000) (q : Fin 64) : EReal :=
  ∑ k : Fin 512, x (ix2 r k) * w (ix2 k q)

/-- The product as an array over the result's indices. -/
def prod (x : S50000x512.Idx → EReal) (w : S512x64.Idx → EReal) : S50000x64.Idx → EReal :=
  fun j => prodAt x w ⟨(j 0).val, (j 0).isLt⟩ ⟨(j 1).val, (j 1).isLt⟩

/-- The body's stored value at `(p, q)`: the rounding steps are the identity on extended reals, and the product into
    the zero accumulator is the sum over the contracted coordinate. -/
theorem stored_at (x0 : Vec Ideal S2000x512 .f32) (x1 : Vec Ideal S512x64 .f32) (p : Fin 2000) (q : Fin 64) :
    k0_pay1 (F := Ideal) x0 x1 (ix2 p q) = ∑ k : Fin 512, x0 (ix2 p k) * x1 (ix2 k q) := by
  unfold k0_pay1
  exact LibBlock.matmul_zero_ix2 dot_S2000x512_S512x64_S2000x64_1_0_0_1_n_n rfl rfl rfl rfl rfl rfl none
    (truncf .bf16 x0 bitsLt_bf16_f32) (truncf .bf16 x1 bitsLt_bf16_f32) p q

/-- The block index maps over the grid: the left operand and the output move down the rows with the point, the right
    operand stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Region
variable (V : (c : Dev nD) → (b : Ref sig .tc) → Buf (Elt Ideal) ((c : Thread nD τ).loc b))

/-- Row `p` of the left operand's block at point `t` is row `2000 t + p` of the array. -/
theorem left_block (c : Dev nD) (t : Fin cfg0.N) (p : Fin 2000) (k : Fin 512) (h : t.val * 2000 + p.val < 50000) :
    iblk0 V c 0 t (ix2 p k) = V c main_arg0 (ix2 ⟨t.val * 2000 + p.val, h⟩ k) := by
  obtain ⟨e0, e1, -, -, -, -⟩ := index_facts t
  show V c main_arg0 (((cfg0.win 0).blk t).view.emb (ix2 p k)) = V c main_arg0 (ix2 ⟨t.val * 2000 + p.val, h⟩ k)
  refine congrArg (V c main_arg0) ?_
  funext a; apply Fin.ext
  match a with
  | ⟨0, _⟩ => show win0_0.index t (0 : Fin 2) * 2000 + 1 * p.val = t.val * 2000 + p.val; omega
  | ⟨1, _⟩ => show win0_0.index t (1 : Fin 2) * 512 + 1 * k.val = k.val; omega

/-- The right operand's block at every point is the whole array. -/
theorem right_block (c : Dev nD) (t : Fin cfg0.N) (k : Fin 512) (q : Fin 64) :
    iblk0 V c 1 t (ix2 k q) = V c main_arg4 (ix2 k q) := by
  obtain ⟨-, -, e2, e3, -, -⟩ := index_facts t
  show V c main_arg4 (((cfg0.win 1).blk t).view.emb (ix2 k q)) = V c main_arg4 (ix2 k q)
  refine congrArg (V c main_arg4) ?_
  funext a; apply Fin.ext
  match a with
  | ⟨0, _⟩ => show win0_1.index t (0 : Fin 2) * 512 + 1 * k.val = k.val; omega
  | ⟨1, _⟩ => show win0_1.index t (1 : Fin 2) * 64 + 1 * q.val = q.val; omega

/-- What point `t` writes back is block `t` of the product of the entry arrays. -/
theorem flushed_eq (c : Dev nD) (t : Fin cfg0.N) :
    (dat0 V c).flushed 2 t = ((cfg0.win 2).blk t).view.read (Elt Ideal) (prod (V c main_arg0) (V c main_arg4)) := by
  show (cfg0.win 2).cut (grid0.coords t) ((dat0 V c).after 2 t) = _
  rw [after0_2]
  unfold out0_2
  rw [View.canon_unit_zero LibBlock.hz]
  simp only [View.ld_unit_zero (S := S2000x512) LibBlock.hz, View.ld_unit_zero (S := S512x64) LibBlock.hz]
  obtain ⟨-, -, -, -, e4, e5⟩ := index_facts t
  have ht : t.val < 25 := by
    have h := t.isLt
    have hN : cfg0.N = 25 := N_0
    omega
  funext y
  have hp : (y 0).val < 2000 := (y 0).isLt
  have hq : (y 1).val < 64 := (y 1).isLt
  have hy : y = ix2 (⟨(y 0).val, hp⟩ : Fin 2000) (⟨(y 1).val, hq⟩ : Fin 64) := eq_ix2 y
  have hrow : t.val * 2000 + (y 0).val < 50000 := by omega
  show k0_pay1 (F := Ideal) (iblk0 V c 0 t) (iblk0 V c 1 t) y
      = prod (V c main_arg0) (V c main_arg4) (((cfg0.win 2).blk t).view.emb y)
  have hemb : ((cfg0.win 2).blk t).view.emb y = ix2 (⟨t.val * 2000 + (y 0).val, hrow⟩ : Fin 50000) (⟨(y 1).val, hq⟩ : Fin 64) := by
    funext a; apply Fin.ext
    match a with
    | ⟨0, _⟩ => show win0_2.index t (0 : Fin 2) * 2000 + 1 * (y 0).val = t.val * 2000 + (y 0).val; omega
    | ⟨1, _⟩ => show win0_2.index t (1 : Fin 2) * 64 + 1 * (y 1).val = (y 1).val; omega
  rw [hemb]
  refine (congrArg (k0_pay1 (F := Ideal) (iblk0 V c 0 t) (iblk0 V c 1 t)) hy).trans ?_
  refine (stored_at (iblk0 V c 0 t) (iblk0 V c 1 t) ⟨(y 0).val, hp⟩ ⟨(y 1).val, hq⟩).trans ?_
  show _ = prodAt (V c main_arg0) (V c main_arg4) ⟨t.val * 2000 + (y 0).val, hrow⟩ ⟨(y 1).val, hq⟩
  unfold prodAt
  refine Finset.sum_congr rfl fun k _ => ?_
  rw [left_block V c t ⟨(y 0).val, hp⟩ k hrow, right_block V c t k ⟨(y 1).val, hq⟩]

/-- An index of the output array is in point `t`'s block iff each coordinate is in the block's range on its axis. -/
theorem mem_blk (t : Fin cfg0.N) (i : S50000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- Every row of the output array is in the block of the point `row / 2000`. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 25 := N_0
  let t : Fin cfg0.N := ⟨(i 0).val / 2000, by rw [hN]; omega⟩
  have htv : t.val = (i 0).val / 2000 := rfl
  obtain ⟨-, -, -, -, e4, e5⟩ := index_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array after the region: the product of the two arrays the region was entered with. -/
theorem array_eq (c : Dev nD) : (dat0 V c).arrAt 2 cfg0.N = prod (V c main_arg0) (V c main_arg4) :=
  (dat0 V c).arrAt_eq_of_cover 2 (prod (V c main_arg0) (V c main_arg4)) (fun t _ => flushed_eq V c t) (cover)

end Region

end Cert.KernelIdeal.Layer1

end
-- ==== Proof.Layer2Blocks.lean ====
/-
  The second tiled product, as one whole-array function.

  The grid again has 25 points. At point `t` the body is handed rows `2000 t … 2000 t + 1999` of the aggregated
  features (64 columns), the bias as a 1 × 64 row and the whole 64 × 16 weight array; it adds the bias row to every
  feature row, takes the maximum with zero, multiplies by the weights into a zero accumulator and stores the 2000 × 16
  block, which the pipeline writes back as the same rows of the output array. So entry `(r, q)` of the output is
  `∑ₖ max (a (r, k) + b (0, k)) 0 * w (k, q)`, and the 25 blocks tile the 50000 rows.
-/
import proofs.«121364_j7541962571801_2_alg».proof.Proof.Gen.KernelIdeal.Frame
import proofs.«121364_j7541962571801_2_alg».proof.Proof.LibBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

/-- Entry `(r, q)` of: bias row added to every row of a 50000 × 64 array, maximum with the zero word's value, times a
    64 × 16 array. -/
def outAt (a : S50000x64.Idx → EReal) (b : S1x64.Idx → EReal) (w : S64x16.Idx → EReal) (r : Fin 50000) (q : Fin 16) : EReal :=
  ∑ k : Fin 64, max (a (ix2 r k) + b (ix2 (0 : Fin 1) k)) (Ideal.ofBits .f32 0x00000000#32) * w (ix2 k q)

/-- The same as an array over the result's indices. -/
def out (a : S50000x64.Idx → EReal) (b : S1x64.Idx → EReal) (w : S64x16.Idx → EReal) : S50000x16.Idx → EReal :=
  fun j => outAt a b w ⟨(j 0).val, (j 0).isLt⟩ ⟨(j 1).val, (j 1).isLt⟩

/-- The left factor the body feeds the product, at `(p, k)`: feature plus bias, floored at zero. The two casts to the
    same shape are the identity, the 1 × 64 row is read at row 0, and rounding is the identity on extended reals. -/
theorem hidden_at (x0 : Vec Ideal S2000x64 .f32) (x1 : Vec Ideal S1x64 .f32) (p : Fin 2000) (k : Fin 64) :
    (truncf .bf16 (maximumf (addf (shapeCast S2000x64 x0 shapeCasts_S2000x64_S2000x64)
        (broadcastTo S2000x64 (shapeCast S1x64 x1 shapeCasts_S1x64_S1x64) broadcasts_S1x64_S2000x64))
        (broadcast S2000x64 (Scalar.ofBits (F := Ideal) .f32 0x00000000#32))) bitsLt_bf16_f32 : FVec Ideal S2000x64 .bf16) (ix2 p k)
      = max (x0 (ix2 p k) + x1 (ix2 (0 : Fin 1) k)) (Ideal.ofBits .f32 0x00000000#32) := by
  rw [shapeCast_self, shapeCast_self]
  show max (x0 (ix2 p k) + broadcastTo S2000x64 x1 broadcasts_S1x64_S2000x64 (ix2 p k)) _ = _
  rw [broadcastTo_1b_ab_apply x1 broadcasts_S1x64_S2000x64 p k]
  rfl

/-- The body's stored value at `(p, q)`. -/
theorem stored_at (x0 : Vec Ideal S2000x64 .f32) (x1 : Vec Ideal S1x64 .f32) (x2 : Vec Ideal S64x16 .f32) (p : Fin 2000) (q : Fin 16) :
    k1_pay1 (F := Ideal) x0 x1 x2 (ix2 p q)
      = ∑ k : Fin 64, max (x0 (ix2 p k) + x1 (ix2 (0 : Fin 1) k)) (Ideal.ofBits .f32 0x00000000#32) * x2 (ix2 k q) := by
  unfold k1_pay1
  refine (LibBlock.matmul_zero_ix2 dot_S2000x64_S64x16_S2000x16_1_0_0_1_n_n rfl rfl rfl rfl rfl rfl none _
    (truncf .bf16 x2 bitsLt_bf16_f32) p q).trans ?_
  refine Finset.sum_congr rfl fun k _ => ?_
  rw [hidden_at x0 x1 p k]
  rfl

/-- The block index maps over the grid: the features and the output move down the rows with the point, the bias row and
    the weights stay. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Region
variable (V : (c : Dev nD) → (b : Ref sig .tc) → Buf (Elt Ideal) ((c : Thread nD τ).loc b))

/-- Row `p` of the feature block at point `t` is row `2000 t + p` of the array. -/
theorem feature_block (c : Dev nD) (t : Fin cfg1.N) (p : Fin 2000) (k : Fin 64) (h : t.val * 2000 + p.val < 50000) :
    iblk1 V c 0 t (ix2 p k) = V c main_v14 (ix2 ⟨t.val * 2000 + p.val, h⟩ k) := by
  obtain ⟨e0, e1, -, -, -, -, -, -⟩ := index_facts t
  show V c main_v14 (((cfg1.win 0).blk t).view.emb (ix2 p k)) = V c main_v14 (ix2 ⟨t.val * 2000 + p.val, h⟩ k)
  refine congrArg (V c main_v14) ?_
  funext a; apply Fin.ext
  match a with
  | ⟨0, _⟩ => show win1_0.index t (0 : Fin 2) * 2000 + 1 * p.val = t.val * 2000 + p.val; omega
  | ⟨1, _⟩ => show win1_0.index t (1 : Fin 2) * 64 + 1 * k.val = k.val; omega

/-- The bias block at every point is the whole 1 × 64 row. -/
theorem bias_block (c : Dev nD) (t : Fin cfg1.N) (z : Fin 1) (k : Fin 64) :
    iblk1 V c 1 t (ix2 z k) = V c main_v15 (ix2 z k) := by
  obtain ⟨-, -, e2, e3, -, -, -, -⟩ := index_facts t
  show V c main_v15 (((cfg1.win 1).blk t).view.emb (ix2 z k)) = V c main_v15 (ix2 z k)
  refine congrArg (V c main_v15) ?_
  funext a; apply Fin.ext
  match a with
  | ⟨0, _⟩ => show win1_1.index t (0 : Fin 2) * 1 + 1 * z.val = z.val; omega
  | ⟨1, _⟩ => show win1_1.index t (1 : Fin 2) * 64 + 1 * k.val = k.val; omega

/-- The weight block at every point is the whole array. -/
theorem weight_block (c : Dev nD) (t : Fin cfg1.N) (k : Fin 64) (q : Fin 16) :
    iblk1 V c 2 t (ix2 k q) = V c main_arg6 (ix2 k q) := by
  obtain ⟨-, -, -, -, e4, e5, -, -⟩ := index_facts t
  show V c main_arg6 (((cfg1.win 2).blk t).view.emb (ix2 k q)) = V c main_arg6 (ix2 k q)
  refine congrArg (V c main_arg6) ?_
  funext a; apply Fin.ext
  match a with
  | ⟨0, _⟩ => show win1_2.index t (0 : Fin 2) * 64 + 1 * k.val = k.val; omega
  | ⟨1, _⟩ => show win1_2.index t (1 : Fin 2) * 16 + 1 * q.val = q.val; omega

/-- What point `t` writes back is block `t` of `out` of the entry arrays. -/
theorem flushed_eq (c : Dev nD) (t : Fin cfg1.N) :
    (dat1 V c).flushed 3 t = ((cfg1.win 3).blk t).view.read (Elt Ideal) (out (V c main_v14) (V c main_v15) (V c main_arg6)) := by
  show (cfg1.win 3).cut (grid1.coords t) ((dat1 V c).after 3 t) = _
  rw [after1_3]
  unfold out1_3
  rw [View.canon_unit_zero LibBlock.hz]
  simp only [View.ld_unit_zero (S := S2000x64) LibBlock.hz, View.ld_unit_zero (S := S1x64) LibBlock.hz, View.ld_unit_zero (S := S64x16) LibBlock.hz]
  obtain ⟨-, -, -, -, -, -, e6, e7⟩ := index_facts t
  have ht : t.val < 25 := by
    have h := t.isLt
    have hN : cfg1.N = 25 := N_1
    omega
  funext y
  have hp : (y 0).val < 2000 := (y 0).isLt
  have hq : (y 1).val < 16 := (y 1).isLt
  have hy : y = ix2 (⟨(y 0).val, hp⟩ : Fin 2000) (⟨(y 1).val, hq⟩ : Fin 16) := eq_ix2 y
  have hrow : t.val * 2000 + (y 0).val < 50000 := by omega
  show k1_pay1 (F := Ideal) (iblk1 V c 0 t) (iblk1 V c 1 t) (iblk1 V c 2 t) y
      = out (V c main_v14) (V c main_v15) (V c main_arg6) (((cfg1.win 3).blk t).view.emb y)
  have hemb : ((cfg1.win 3).blk t).view.emb y = ix2 (⟨t.val * 2000 + (y 0).val, hrow⟩ : Fin 50000) (⟨(y 1).val, hq⟩ : Fin 16) := by
    funext a; apply Fin.ext
    match a with
    | ⟨0, _⟩ => show win1_3.index t (0 : Fin 2) * 2000 + 1 * (y 0).val = t.val * 2000 + (y 0).val; omega
    | ⟨1, _⟩ => show win1_3.index t (1 : Fin 2) * 16 + 1 * (y 1).val = (y 1).val; omega
  rw [hemb]
  refine (congrArg (k1_pay1 (F := Ideal) (iblk1 V c 0 t) (iblk1 V c 1 t) (iblk1 V c 2 t)) hy).trans ?_
  refine (stored_at (iblk1 V c 0 t) (iblk1 V c 1 t) (iblk1 V c 2 t) ⟨(y 0).val, hp⟩ ⟨(y 1).val, hq⟩).trans ?_
  show _ = outAt (V c main_v14) (V c main_v15) (V c main_arg6) ⟨t.val * 2000 + (y 0).val, hrow⟩ ⟨(y 1).val, hq⟩
  unfold outAt
  refine Finset.sum_congr rfl fun k _ => ?_
  rw [feature_block V c t ⟨(y 0).val, hp⟩ k hrow, bias_block V c t 0 k, weight_block V c t k ⟨(y 1).val, hq⟩]

/-- An index of the output array is in point `t`'s block iff each coordinate is in the block's range on its axis. -/
theorem mem_blk (t : Fin cfg1.N) (i : S50000x16.Idx) :
    i ∈ ((cfg1.win 3).blk t).view.set ↔ ∀ a : Fin 2, win1_3.index t a * S2000x16.size a ≤ (i a).val ∧ (i a).val < win1_3.index t a * S2000x16.size a + S2000x16.size a := by
  show i ∈ ((View.whole main_v16).slice (win1_3.rect t)).set ↔ _
  rw [View.set_slice_whole, Rect.mem_set_unit]
  exact Iff.rfl

/-- Every row of the output array is in the block of the point `row / 2000`. -/
theorem cover (i : S50000x16.Idx) :
    ∃ t : Fin cfg1.N, (cfg1.win 3).flush t = true ∧ i ∈ ((cfg1.win 3).blk t).view.set := by
  have hi0 : (i 0).val < 50000 := (i 0).isLt
  have hi1 : (i 1).val < 16 := (i 1).isLt
  have hN : cfg1.N = 25 := N_1
  let t : Fin cfg1.N := ⟨(i 0).val / 2000, by rw [hN]; omega⟩
  have htv : t.val = (i 0).val / 2000 := rfl
  obtain ⟨-, -, -, -, -, -, e6, e7⟩ := index_facts t
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 16 ≤ (i 1).val ∧ (i 1).val < win1_3.index t (1 : Fin 2) * 16 + 16; omega

/-- The output array after the region: `out` of the three arrays the region was entered with. -/
theorem array_eq (c : Dev nD) : (dat1 V c).arrAt 3 cfg1.N = out (V c main_v14) (V c main_v15) (V c main_arg6) :=
  (dat1 V c).arrAt_eq_of_cover 3 (out (V c main_v14) (V c main_v15) (V c main_arg6)) (fun t _ => flushed_eq V c t) (cover)

end Region

end Cert.KernelIdeal.Layer2

end
-- ==== Proof.Chains.lean ====
/-
  The host chains the two programs share, each named once as a function of the value that enters it.

  * `wrapIdx`: a column of signed 32-bit indices with the negative ones shifted up by 50000 (index from the end);
  * `agg64`, `agg16`: the sparse aggregation — gather the rows of `h` at the wrapped source indices, scale row `e` by
    the edge weight `e`, and add each scaled row into the zero array at its destination index;
  * `hidden`: add the bias row to every row and take the maximum with zero;
  * `logits`: add the class bias row to every row;
  * `softmaxRows`: subtract each row's maximum, exponentiate, divide by the row's sum.

  The reference program's result is these functions composed over two matrix products of its arguments
  (`reference_eq`: its composed term is literally this composition, opened).
-/
import proofs.«121364_j7541962571801_2_alg».proof.Proof.Gen.ReferenceIdeal.Run
import Idealize.ShloMosaic.PureOps.Ideal

set_option maxRecDepth 16384

noncomputable section

namespace Cert.Chains

open Cert.ReferenceIdeal Cert.ReferenceIdeal.Gen
open Idealize.ShloMosaic Idealize.ShloMosaic.TcCoe Idealize.SL.Sem

abbrev Arr64 := FVec Ideal S50000x64 .f32
abbrev Arr16 := FVec Ideal S50000x16 .f32
abbrev EdgeIdx := IVec S800000 32
abbrev EdgeW := FVec Ideal S800000 .f32
abbrev Bias64 := FVec Ideal S64 .f32
abbrev Bias16 := FVec Ideal S16 .f32

/-- The source indices as a column, a negative index counted from the end of the 50000 rows. -/
def wrapIdx (src : EdgeIdx) : IVec S800000x1 32 :=
  broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)

/-- Sparse aggregation of 64-wide rows: `out[dst e] += h[src e] * weight e` over the 800000 edges, from zero. -/
def agg64 (h : Arr64) (src dst : EdgeIdx) (ew : EdgeW) : Arr64 :=
  Host.scatterAdd scatter_S50000x64_S800000x1_S800000x64_1_0_0_1 (broadcastInDim S50000x64 ![] bcast_S_S50000x64 (constant (F := Ideal) S_ .f32 0x00000000#32)) (broadcastInDim S800000x1 ![0] bcast_S800000_S800000x1_0 dst) (mulf (Host.gather gather_S50000x64_S800000x1_S800000x64_1_0_n_n_0_1_164 h (wrapIdx src)) (broadcastInDim S800000x64 ![0, 1] bcast_S800000x1_S800000x64_0_1 (broadcastInDim S800000x1 ![0] bcast_S800000_S800000x1_0 ew)))

/-- Sparse aggregation of 16-wide rows. -/
def agg16 (h : Arr16) (src dst : EdgeIdx) (ew : EdgeW) : Arr16 :=
  Host.scatterAdd scatter_S50000x16_S800000x1_S800000x16_1_0_0_1 (broadcastInDim S50000x16 ![] bcast_S_S50000x16 (constant (F := Ideal) S_ .f32 0x00000000#32)) (broadcastInDim S800000x1 ![0] bcast_S800000_S800000x1_0 dst) (mulf (Host.gather gather_S50000x16_S800000x1_S800000x16_1_0_n_n_0_1_116 h (wrapIdx src)) (broadcastInDim S800000x16 ![0, 1] bcast_S800000x1_S800000x16_0_1 (broadcastInDim S800000x1 ![0] bcast_S800000_S800000x1_0 ew)))

/-- Bias added to every row, then the maximum with zero. -/
def hidden (a : Arr64) (b1 : Bias64) : Arr64 :=
  maximumf (addf a (broadcastInDim S50000x64 ![0, 1] bcast_S1x64_S50000x64_0_1 (broadcastInDim S1x64 ![1] bcast_S64_S1x64_1 b1))) (broadcastInDim S50000x64 ![] bcast_S_S50000x64 (constant (F := Ideal) S_ .f32 0x00000000#32))

/-- The class bias added to every row. -/
def logits (s : Arr16) (b2 : Bias16) : Arr16 :=
  addf s (broadcastInDim S50000x16 ![0, 1] bcast_S1x16_S50000x16_0_1 (broadcastInDim S1x16 ![1] bcast_S16_S1x16_1 b2))

/-- Each row's maximum (never below minus infinity), spread back over the row. -/
def rowMax (z : Arr16) : Arr16 :=
  broadcastInDim S50000x16 ![0, 1] bcast_S50000x1_S50000x16_0_1 (broadcastInDim S50000x1 ![0] bcast_S50000_S50000x1_0 (maximumf (broadcastInDim S50000 ![] bcast_S_S50000 (constant (F := Ideal) S_ .f32 0xFF800000#32)) (Host.reduce FloatOps.maximumf z (constant (F := Ideal) S_ .f32 0xFF800000#32) reducesTo_S50000x16_S50000_d1 h_S_)))

/-- Row softmax: `exp (z - rowMax z)` divided by its row sums. -/
def softmaxRows (z : Arr16) : Arr16 :=
  Host.divf (Host.exp (subf z (rowMax z))) (broadcastInDim S50000x16 ![0, 1] bcast_S50000x1_S50000x16_0_1 (broadcastInDim S50000x1 ![0] bcast_S50000_S50000x1_0 (Host.reduceAdd (Host.exp (subf z (rowMax z))) (constant (F := Ideal) S_ .f32 0x00000000#32) reducesTo_S50000x16_S50000_d1 h_S_)))

/-- The two-layer network over its two matrix products `p1` (features times first weights) and `p2` (a function of the
    hidden layer: hidden layer times second weights). -/
def network (p1 : Arr64) (p2 : Arr64 → Arr16) (src dst : EdgeIdx) (ew : EdgeW)
    (b1 : Bias64) (b2 : Bias16) : Arr16 :=
  softmaxRows (logits (agg16 (p2 (hidden (agg64 p1 src dst ew) b1)) src dst ew) b2)

set_option maxRecDepth 65536 in
/-- The reference program's composed term is the network over the host's two matrix products. -/
theorem reference_eq (m : (ℓ : Loc nD τ sig) → Buf (Elt Ideal) ℓ) (c : Dev nD) :
    Cert.ReferenceIdeal.Value.res_main_v45 (F := Ideal) m c
      = network (Host.dotGeneral (φ₁ := .f32) (φ₂ := .f32) dot_S50000x512_S512x64_S50000x64_1_0_0_1_n_n none (m ((c.tc : Thread nD τ).loc main_arg0)) (m ((c.tc : Thread nD τ).loc main_arg4)))
          (fun hd => Host.dotGeneral (φ₁ := .f32) (φ₂ := .f32) dot_S50000x64_S64x16_S50000x16_1_0_0_1_n_n none hd (m ((c.tc : Thread nD τ).loc main_arg6)))
          (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg7)) := by
  unfold Cert.ReferenceIdeal.Value.res_main_v45 network softmaxRows rowMax logits agg16 hidden agg64 wrapIdx
  rfl

end Cert.Chains

end
-- ==== Proof.KernelValue.lean ====
/-
  The idealized kernel program's result, as the shared chains over its two tiled products.

  Reading the four segments backwards from the result buffer: the last host stretch is the softmax of the logits of the
  16-wide sparse aggregation of the second tiled product's array; that array is `Layer2.out` of the 64-wide sparse
  aggregation, the bias row and the second weights; the 64-wide aggregation (the first host stretch) gathers from the
  first tiled product's array, which is `Layer1.prod` of the features and the first weights. The index and weight
  arrays pass through every segment unchanged, and the bias row is the bias vector laid as one row.
-/
import proofs.«121364_j7541962571801_2_alg».proof.Proof.Gen.KernelIdeal.Frame
import proofs.«121364_j7541962571801_2_alg».proof.Proof.Layer1Blocks
import proofs.«121364_j7541962571801_2_alg».proof.Proof.Layer2Blocks
import proofs.«121364_j7541962571801_2_alg».proof.Proof.Chains
import Idealize.ShloMosaic.Lib.Pipeline.Value
import Idealize.ShloMosaic.Lib.ValueIdx

set_option maxRecDepth 16384

noncomputable section

namespace Cert.KernelIdeal.Result

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

/-! ## The first host stretch -/

/-- The aggregated features entering the second tiled product: the 64-wide sparse aggregation of whatever the first
    tiled product left, over the index and weight arrays as they stand after the first region. -/
theorem first_stretch (c : Dev nD) :
    W2 m ρ c (Proc.devRef .tc main_v14)
      = Chains.agg64 (W1 m ρ c (Proc.devRef .tc main_v0)) (W1 m ρ c (Proc.devRef .tc main_arg1))
          (W1 m ρ c (Proc.devRef .tc main_arg2)) (W1 m ρ c (Proc.devRef .tc main_arg3)) := by
  show StableHlo.after hostOps1 (W1 m ρ c) (Proc.devRef .tc main_v14) = _
  generalize W1 m ρ c = X
  after_results
  unfold Chains.agg64 Chains.wrapIdx
  rfl

/-- A buffer the first host stretch does not write keeps its contents. -/
theorem first_stretch_keeps (c : Dev nD) (k : Fin 8) :
    W2 m ρ c (Proc.devRef .tc (![main_arg0, main_arg1, main_arg2, main_arg3, main_arg4, main_arg5, main_arg6, main_arg7] k))
      = W1 m ρ c (Proc.devRef .tc (![main_arg0, main_arg1, main_arg2, main_arg3, main_arg4, main_arg5, main_arg6, main_arg7] k)) := by
  show StableHlo.after hostOps1 (W1 m ρ c) _ = _
  generalize W1 m ρ c = X
  fin_cases k <;> (after_results <;> rfl)

/-- The bias row entering the second tiled product is the bias vector laid as one row. -/
theorem bias_row (c : Dev nD) (k : Fin 64) :
    W2 m ρ c (Proc.devRef .tc main_v15) (ix2 (0 : Fin 1) k) = W1 m ρ c (Proc.devRef .tc main_arg5) (ix1 k) := by
  show StableHlo.after hostOps1 (W1 m ρ c) (Proc.devRef .tc main_v15) (ix2 (0 : Fin 1) k) = _
  generalize W1 m ρ c = X
  after_results
  refine (shapeCast_addUnit_apply (![64] : Fin 1 → Nat) _ _ (ix2 (0 : Fin 1) k)).trans ?_
  refine congrArg (X (Proc.devRef .tc main_arg5)) (funext fun a => ?_)
  match a with
  | ⟨0, _⟩ => rfl

/-! ## The last host stretch -/

/-- The result: the row softmax of the logits of the 16-wide sparse aggregation of whatever the second tiled product
    left, over the index, weight and class-bias arrays as they stand after the second region. -/
theorem last_stretch (c : Dev nD) :
    W4 m ρ c (Proc.devRef .tc main_v44)
      = Chains.softmaxRows (Chains.logits (Chains.agg16 (W3 m ρ c (Proc.devRef .tc main_v16)) (W3 m ρ c (Proc.devRef .tc main_arg1))
          (W3 m ρ c (Proc.devRef .tc main_arg2)) (W3 m ρ c (Proc.devRef .tc main_arg3))) (W3 m ρ c (Proc.devRef .tc main_arg7))) := by
  show StableHlo.after hostOps2 (W3 m ρ c) (Proc.devRef .tc main_v44) = _
  generalize W3 m ρ c = X
  after_results_simp
  unfold Chains.softmaxRows Chains.rowMax Chains.logits Chains.agg16 Chains.wrapIdx
  rfl

/-! ## The arrays that pass through -/

theorem W1_arg (c : Dev nD) (b : Ref sig .tc) (hb : ∀ w, Pipeline.arrRef spec0 w ≠ b) :
    W1 m ρ c (Proc.devRef .tc b) = m ((c : Thread nD τ).loc b) :=
  (W1_of_ne m ρ c b hb).trans rfl

theorem W1_arg1 (c : Dev nD) : W1 m ρ c (Proc.devRef .tc main_arg1) = (m ((c : Thread nD τ).loc main_arg1)) := W1_arg m ρ c main_arg1 (by decide)
theorem W1_arg2 (c : Dev nD) : W1 m ρ c (Proc.devRef .tc main_arg2) = (m ((c : Thread nD τ).loc main_arg2)) := W1_arg m ρ c main_arg2 (by decide)
theorem W1_arg3 (c : Dev nD) : W1 m ρ c (Proc.devRef .tc main_arg3) = (m ((c : Thread nD τ).loc main_arg3)) := W1_arg m ρ c main_arg3 (by decide)
theorem W1_arg5 (c : Dev nD) : W1 m ρ c (Proc.devRef .tc main_arg5) = (m ((c : Thread nD τ).loc main_arg5)) := W1_arg m ρ c main_arg5 (by decide)
theorem W1_arg6 (c : Dev nD) : W1 m ρ c (Proc.devRef .tc main_arg6) = (m ((c : Thread nD τ).loc main_arg6)) := W1_arg m ρ c main_arg6 (by decide)
theorem W1_arg7 (c : Dev nD) : W1 m ρ c (Proc.devRef .tc main_arg7) = (m ((c : Thread nD τ).loc main_arg7)) := W1_arg m ρ c main_arg7 (by decide)

theorem W2_arg1 (c : Dev nD) : W2 m ρ c (Proc.devRef .tc main_arg1) = (m ((c : Thread nD τ).loc main_arg1)) := (first_stretch_keeps m ρ c 1).trans (W1_arg1 m ρ c)
theorem W2_arg2 (c : Dev nD) : W2 m ρ c (Proc.devRef .tc main_arg2) = (m ((c : Thread nD τ).loc main_arg2)) := (first_stretch_keeps m ρ c 2).trans (W1_arg2 m ρ c)
theorem W2_arg3 (c : Dev nD) : W2 m ρ c (Proc.devRef .tc main_arg3) = (m ((c : Thread nD τ).loc main_arg3)) := (first_stretch_keeps m ρ c 3).trans (W1_arg3 m ρ c)
theorem W2_arg6 (c : Dev nD) : W2 m ρ c (Proc.devRef .tc main_arg6) = (m ((c : Thread nD τ).loc main_arg6)) := (first_stretch_keeps m ρ c 6).trans (W1_arg6 m ρ c)
theorem W2_arg7 (c : Dev nD) : W2 m ρ c (Proc.devRef .tc main_arg7) = (m ((c : Thread nD τ).loc main_arg7)) := (first_stretch_keeps m ρ c 7).trans (W1_arg7 m ρ c)

theorem W3_arg1 (c : Dev nD) : W3 m ρ c (Proc.devRef .tc main_arg1) = (m ((c : Thread nD τ).loc main_arg1)) := (W3_of_ne m ρ c main_arg1 (by decide)).trans (W2_arg1 m ρ c)
theorem W3_arg2 (c : Dev nD) : W3 m ρ c (Proc.devRef .tc main_arg2) = (m ((c : Thread nD τ).loc main_arg2)) := (W3_of_ne m ρ c main_arg2 (by decide)).trans (W2_arg2 m ρ c)
theorem W3_arg3 (c : Dev nD) : W3 m ρ c (Proc.devRef .tc main_arg3) = (m ((c : Thread nD τ).loc main_arg3)) := (W3_of_ne m ρ c main_arg3 (by decide)).trans (W2_arg3 m ρ c)
theorem W3_arg7 (c : Dev nD) : W3 m ρ c (Proc.devRef .tc main_arg7) = (m ((c : Thread nD τ).loc main_arg7)) := (W3_of_ne m ρ c main_arg7 (by decide)).trans (W2_arg7 m ρ c)

/-! ## The two tiled products' arrays -/

/-- After the first region its output array is the product of the features and the first weights. -/
theorem first_array (c : Dev nD) :
    W1 m ρ c (Proc.devRef .tc main_v0) = Layer1.prod (m ((c : Thread nD τ).loc main_arg0)) (m ((c : Thread nD τ).loc main_arg4)) :=
  (W1_arr m ρ c 2).trans (Layer1.array_eq (V0 m ρ) c)

/-- After the second region its output array is `Layer2.out` of the arrays it was entered with. -/
theorem second_array (c : Dev nD) :
    W3 m ρ c (Proc.devRef .tc main_v16)
      = Layer2.out (W2 m ρ c (Proc.devRef .tc main_v14)) (W2 m ρ c (Proc.devRef .tc main_v15)) (W2 m ρ c (Proc.devRef .tc main_arg6)) :=
  (W3_arr m ρ c 3).trans (Layer2.array_eq (V2 m ρ) c)

/-! ## The result -/

/-- The aggregated features entering the second region. -/
abbrev features (c : Dev nD) : Chains.Arr64 :=
  Chains.agg64 (Layer1.prod (m ((c : Thread nD τ).loc main_arg0)) (m ((c : Thread nD τ).loc main_arg4))) (m ((c : Thread nD τ).loc main_arg1)) (m ((c : Thread nD τ).loc main_arg2)) (m ((c : Thread nD τ).loc main_arg3))

/-- The aggregated features, in the launch memory's terms. -/
theorem features_eq (c : Dev nD) : W2 m ρ c (Proc.devRef .tc main_v14) = features m c := by
  rw [first_stretch, first_array, W1_arg1, W1_arg2, W1_arg3]

/-- The program's result in the launch memory's terms. -/
theorem result_eq (c : Dev nD) :
    W4 m ρ c (Proc.devRef .tc main_v44)
      = Chains.softmaxRows (Chains.logits (Chains.agg16
          (Layer2.out (features m c) (W2 m ρ c (Proc.devRef .tc main_v15)) (m ((c : Thread nD τ).loc main_arg6)))
          (m ((c : Thread nD τ).loc main_arg1)) (m ((c : Thread nD τ).loc main_arg2)) (m ((c : Thread nD τ).loc main_arg3))) (m ((c : Thread nD τ).loc main_arg7))) := by
  rw [last_stretch, second_array, features_eq, W2_arg6, W3_arg1, W3_arg2, W3_arg3, W3_arg7]

/-- The bias row, in the launch memory's terms. -/
theorem bias_row_eq (c : Dev nD) (k : Fin 64) :
    W2 m ρ c (Proc.devRef .tc main_v15) (ix2 (0 : Fin 1) k) = (m ((c : Thread nD τ).loc main_arg5)) (ix1 k) := by
  rw [bias_row, W1_arg5]

end Cert.KernelIdeal.Result

end
-- ==== Proof.LibHostProduct.lean ====
/-
  The host's matrix product read at an index, and two small reads of host broadcasts.

  * `dotGeneral_ix2`: the host's plain product `[M, K] × [K, N]`, read at `(p, q)`, is the sum over the contracted
    coordinate `k : Fin K` of `lhs (p, k) * rhs (k, q)` on the extended reals (any extents, any float formats);
  * `bias_row_apply`: a length-`n` vector laid as a `1 × n` row and spread over `a` rows reads at `(r, k)` its entry `k`;
  * `splat_apply`: a rank-0 constant spread over any shape reads at every index the constant's value.
-/
import Idealize.ShloMosaic.Lib.Pipeline.Value
import Idealize.ShloMosaic.Lib.ValueIdx
import Idealize.ShloMosaic.PureOps.Ideal.Laws
import proofs.«121364_j7541962571801_2_alg».proof.Proof.LibBlock

noncomputable section

open scoped BigOperators

namespace Cert.LibHostProduct

open Idealize.ShloMosaic Idealize.ShloMosaic.ValueIdx

section Product
variable {M K N : Nat} (D : DotDims ⟨2, ![M, K]⟩ ⟨2, ![K, N]⟩ ⟨2, ![M, N]⟩)

/-- The host's plain product `[M, K] × [K, N]` read at `(p, q)`: `∑ₖ lhs (p, k) * rhs (k, q)`. -/
theorem dotGeneral_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral D prec lhs rhs (ix2 p q) = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.dotGeneral_apply D prec .single lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact LibBlock.lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact LibBlock.rhsIdx_val_col D hlb hln hrb hrn _ _)
  rw [el, er]

end Product

/-- A length-`n` vector laid as a `1 × n` row, then spread over `a` rows, read at `(r, k)`: entry `k`. -/
theorem bias_row_apply {α : Type} {a n : Nat} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (r : Fin a) (k : Fin n) :
    broadcastInDim ⟨2, ![a, n]⟩ ![0, 1] h2 (broadcastInDim ⟨2, ![1, n]⟩ ![1] h1 b) (ix2 r k) = b (ix1 k) := by
  refine (broadcastInDim_apply _ h2 _ (ix2 r k) (ix2 (0 : Fin 1) k) fun ax => ?_).trans ?_
  · match ax with
    | ⟨0, _⟩ => rfl
    | ⟨1, _⟩ =>
      show k.val = if n = 1 then 0 else k.val
      split
      · have := k.isLt; omega
      · rfl
  · refine broadcastInDim_apply _ h1 b (ix2 (0 : Fin 1) k) (ix1 k) fun ax => ?_
    match ax with
    | ⟨0, _⟩ =>
      show k.val = if n = 1 then 0 else k.val
      split
      · have := k.isLt; omega
      · rfl

/-- A rank-0 value spread over any shape reads at every index that value. -/
theorem splat_apply {α : Type} {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

end Cert.LibHostProduct

end
-- ==== Proof.Bridge.lean ====
/-
  The host's two matrix products are the two tiled products' whole-array functions.

  * The reference's first product `x · W1`, entry by entry, is `∑ₖ x (r, k) * W1 (k, q)`: the array the first tiled
    product leaves (`Layer1.prod`).
  * The reference adds the bias to every row of the aggregated features, floors at zero and multiplies by `W2`; entry
    `(r, q)` is `∑ₖ max (a (r, k) + b1 k) 0 * W2 (k, q)`, which is what the second tiled product leaves (`Layer2.out`)
    when its 1 × 64 bias row holds `b1`.
-/
import proofs.«121364_j7541962571801_2_alg».proof.Proof.Layer1Blocks
import proofs.«121364_j7541962571801_2_alg».proof.Proof.Layer2Blocks
import proofs.«121364_j7541962571801_2_alg».proof.Proof.Chains
import proofs.«121364_j7541962571801_2_alg».proof.Proof.LibHostProduct

set_option maxRecDepth 16384

noncomputable section

open scoped BigOperators

namespace Cert.Bridge

open Idealize.ShloMosaic Idealize.ShloMosaic.ValueIdx
open Cert.ReferenceIdeal (S50000x512 S512x64 S50000x64 S64x16 S50000x16 S1x64 S64)

/-- The host's `x · W1` is the first tiled product's array. -/
theorem first_product (x : FVec Ideal S50000x512 .f32) (w : FVec Ideal S512x64 .f32) :
    Host.dotGeneral Cert.ReferenceIdeal.dot_S50000x512_S512x64_S50000x64_1_0_0_1_n_n none x w
      = Cert.KernelIdeal.Layer1.prod x w := by
  funext j
  have hj : j = ix2 (⟨(j 0).val, (j 0).isLt⟩ : Fin 50000) (⟨(j 1).val, (j 1).isLt⟩ : Fin 64) := eq_ix2 j
  refine (congrArg (Host.dotGeneral Cert.ReferenceIdeal.dot_S50000x512_S512x64_S50000x64_1_0_0_1_n_n none x w) hj).trans ?_
  exact LibHostProduct.dotGeneral_ix2 Cert.ReferenceIdeal.dot_S50000x512_S512x64_S50000x64_1_0_0_1_n_n rfl rfl rfl rfl rfl rfl none x w _ _

/-- The reference's hidden layer at `(r, k)`: feature plus bias, floored at zero. -/
theorem hidden_at (a : Chains.Arr64) (b1 : Chains.Bias64) (r : Fin 50000) (k : Fin 64) :
    Chains.hidden a b1 (ix2 r k) = max (a (ix2 r k) + b1 (ix1 k)) (Ideal.ofBits .f32 0x00000000#32) := by
  unfold Chains.hidden
  show max (a (ix2 r k) + broadcastInDim S50000x64 ![0, 1] _ (broadcastInDim S1x64 ![1] _ b1) (ix2 r k))
      (broadcastInDim S50000x64 ![] _ (constant (F := Ideal) Cert.ReferenceIdeal.S_ .f32 0x00000000#32) (ix2 r k)) = _
  rw [LibHostProduct.bias_row_apply, LibHostProduct.splat_apply]
  rfl

/-- The host's `hidden · W2` is the second tiled product's array, for a bias row holding `b1`. -/
theorem second_product (a : Chains.Arr64) (b1 : Chains.Bias64) (brow : FVec Ideal S1x64 .f32) (w : FVec Ideal S64x16 .f32)
    (hb : ∀ k : Fin 64, brow (ix2 (0 : Fin 1) k) = b1 (ix1 k)) :
    Host.dotGeneral Cert.ReferenceIdeal.dot_S50000x64_S64x16_S50000x16_1_0_0_1_n_n none (Chains.hidden a b1) w
      = Cert.KernelIdeal.Layer2.out a brow w := by
  funext j
  have hj : j = ix2 (⟨(j 0).val, (j 0).isLt⟩ : Fin 50000) (⟨(j 1).val, (j 1).isLt⟩ : Fin 16) := eq_ix2 j
  refine (congrArg (Host.dotGeneral Cert.ReferenceIdeal.dot_S50000x64_S64x16_S50000x16_1_0_0_1_n_n none (Chains.hidden a b1) w) hj).trans ?_
  refine (LibHostProduct.dotGeneral_ix2 Cert.ReferenceIdeal.dot_S50000x64_S64x16_S50000x16_1_0_0_1_n_n rfl rfl rfl rfl rfl rfl none
    (Chains.hidden a b1) w _ _).trans ?_
  show _ = Cert.KernelIdeal.Layer2.outAt a brow w ⟨(j 0).val, (j 0).isLt⟩ ⟨(j 1).val, (j 1).isLt⟩
  unfold Cert.KernelIdeal.Layer2.outAt
  refine Finset.sum_congr rfl fun k _ => ?_
  rw [hidden_at a b1 _ k, hb k]

end Cert.Bridge

end
-- ==== Proof.lean ====
/-
  A two-layer graph convolution, tiled on the accelerator, against its plain array form.

  Both programs compute, for features `x`, edge lists `src`, `dst`, edge weights `w`, weights `W1`, `W2` and biases
  `b1`, `b2`:

      softmax over each row of   A · (max (A · (x · W1) + b1) 0 · W2) + b2,

  where `A · h` is the sparse aggregation `(A · h)[v] = ∑ over edges e with dst e = v of w e * h[src e]`.

  The kernel program computes `x · W1` in 25 row blocks of 2000 rows (each block a full product over all 512 columns,
  so no sum is regrouped), aggregates on the host, computes `max (· + b1) 0 · W2` again in 25 row blocks, aggregates on
  the host again, and applies bias and softmax on the host. The reference does every step on the host. On the extended
  reals rounding to a narrower float format and back is the identity, a product into a zero accumulator is the plain sum
  over the contracted coordinate, and the host chains (index wrap-around, gather, scale, scatter-add; bias and softmax)
  are the same operations in both programs. So the two results are one function of the arguments: the tiled products'
  arrays are the host's two products (`Bridge`), and everything around them is shared (`Chains`). No law that needs
  finiteness is used: the precondition is never opened.

  The three frame claims are the generated runs; the idealization rewrote nothing, so there is nothing to preserve.
-/
import proofs.«121364_j7541962571801_2_alg».proof.Defs
import proofs.«121364_j7541962571801_2_alg».proof.Proof.Gen.Kernel
import proofs.«121364_j7541962571801_2_alg».proof.Proof.Gen.Kernel.Frame
import proofs.«121364_j7541962571801_2_alg».proof.Proof.Gen.KernelIdeal
import proofs.«121364_j7541962571801_2_alg».proof.Proof.Gen.KernelIdeal.Frame
import proofs.«121364_j7541962571801_2_alg».proof.Proof.Gen.ReferenceIdeal
import proofs.«121364_j7541962571801_2_alg».proof.Proof.Gen.ReferenceIdeal.Run
import proofs.«121364_j7541962571801_2_alg».proof.Proof.Gen.Pre_finite_inputs
import proofs.«121364_j7541962571801_2_alg».proof.Proof.KernelRun
import proofs.«121364_j7541962571801_2_alg».proof.Proof.KernelValue
import proofs.«121364_j7541962571801_2_alg».proof.Proof.Chains
import proofs.«121364_j7541962571801_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the two idealized programs end with equal results: the reference's term
    is the shared network over the host's two products, the kernel's the same network over its two tiled products'
    arrays, and those arrays are the host's products. -/
theorem algebraic : Cert.algebraic_KernelIdeal_ReferenceIdeal := by
  intro m ρ m' ρ' _ hagree
  refine ⟨fun c => Cert.KernelIdeal.Gen.W4 m ρ c (Proc.devRef .tc Cert.KernelIdeal.main_v44),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.Chains.reference_eq, h0, h1, h2, h3, h4, h5, h6, h7]
  show _ = Cert.KernelIdeal.Gen.W4 m ρ c (Proc.devRef .tc Cert.KernelIdeal.main_v44)
  rw [Cert.KernelIdeal.Result.result_eq m ρ c]
  unfold Cert.Chains.network
  dsimp only
  rw [Cert.Bridge.first_product,
    Cert.Bridge.second_product _ _ (Cert.KernelIdeal.Gen.W2 m ρ c (Proc.devRef .tc Cert.KernelIdeal.main_v15)) _
      (Cert.KernelIdeal.Result.bias_row_eq m ρ c)]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
